-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  main_v8
-- ==== Kernel.lean ====
abbrev S8192x64 : Shape := ⟨2, ![8192, 64]⟩
abbrev S64x8192 : Shape := ⟨2, ![64, 8192]⟩
abbrev S8192x8192 : Shape := ⟨2, ![8192, 8192]⟩
abbrev S1024x64 : Shape := ⟨2, ![1024, 64]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64x8192, .f32⟩
  | .hbm, ⟨3, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S64x1024, .f32⟩
  | .local _ .vmem, ⟨3, _⟩ => ⟨S64x1024, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8192x64_S64x8192_1_0 : S8192x64.Transposes [1, 0] S64x8192
  inb_S1024x64_S1024x64_0_0 : ∀ a, (![0, 0] : Fin 2 → Nat) a + S1024x64.size a ≤ S1024x64.size a
  h_S1024x64 : 0 < S1024x64.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  reduces_S1024x64_S1024 : S1024x64.Reduces [1] S1024
  shapeCasts_S1024_S1024x1 : S1024.ShapeCasts S1024x1
  reduces_S64x1024_S1024 : S64x1024.Reduces [0] S1024
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x8192.size a
  hwx0_1 : ∀ i : grid0.Coords, EltTy.bits .f32 = 32 ∨ (Rect.block (s := S64x8192) S64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S_ : Shape := ⟨0, ![]⟩
abbrev S8192 : Shape := ⟨1, ![8192]⟩
abbrev S64x8192 : Shape := ⟨2, ![64, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x64, .f32⟩
  | .hbm, ⟨6, _⟩ => ⟨S_, .f32⟩
  | .hbm, ⟨7, _⟩ => ⟨S8192, .f32⟩
  | .hbm, ⟨8, _⟩ => ⟨S64x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  transposes_S8192x64_S64x8192_1_0 : S8192x64.Transposes [1, 0] S64x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«128940_j65481071398549_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«128940_j65481071398549_2_alg».proof.Proof.LibDenseRows
import proofs.«128940_j65481071398549_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibColSums.lean ====
/-
  General lemmas for kernels that keep a per-column number as a [1, b] row, read at the exact (extended-real) instance.

  * `colSum_apply`: a sum of an [a, b] array along its FIRST axis is, at q, the plain sum over k of the array at (k, q).
  * `keepdimsColSum_apply`: that sum kept as a [1, b] row reads, at (u, q), the same sum.
  * `broadcast_keepdimsColSum_apply`: the row repeated down the rows of an [m, b] array reads, at (p, q), the same sum.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ColSums

open Idealize.ShloMosaic Idealize.ShloMosaic.ValueIdx

/-- The sum of an [a, b] array along its first axis, at q, is the sum over k of the array at (k, q). -/
theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun c => Fin.ext ?_)
  rw [h.lift_val]
  match c with
  | ⟨0, _⟩ => rfl
  | ⟨1, _⟩ => rfl

/-- The same sum kept as a [1, b] row: at (u, q) the sum over k of the array at (k, q). -/
theorem keepdimsColSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (u : Fin 1) (q : Fin b) :
    shapeCast ⟨2, ![1, b]⟩ (multiReduction .add [0] ⟨1, ![b]⟩ src acc h hφ hacc) hs (ix2 u q) = ∑ k : Fin a, src (ix2 k q) :=
  (shapeCast_a_1a_apply _ hs u q).trans (colSum_apply src acc h hφ hacc q)

/-- The row of column sums repeated down the rows of an [m, b] array: at (p, q) the sum over k of the array at (k, q). -/
theorem broadcast_keepdimsColSum_apply {a b m : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (hs : (⟨1, ![b]⟩ : Shape).ShapeCasts ⟨2, ![1, b]⟩) (hb : (⟨2, ![1, b]⟩ : Shape).Broadcasts ⟨2, ![m, b]⟩) (p : Fin m) (q : Fin b) :
    broadcastTo ⟨2, ![m, b]⟩ (shapeCast ⟨2, ![1, b]⟩ (multiReduction .add [0] ⟨1, ![b]⟩ src acc h hφ hacc) hs) hb (ix2 p q)
      = ∑ k : Fin a, src (ix2 k q) :=
  (broadcastTo_1b_ab_apply _ hb p q).trans (keepdimsColSum_apply src acc h hφ hacc hs 0 q)

end Cert.ColSums

end
-- ==== Proof.RbfBody.lean ====
/-
  One entry of the kernel body's result.

  The body takes a [1024, 64] block x of the first array and a [64, 1024] block y of the transposed second array and
  stores one [1024, 1024] tile. Entry (p, q) of the tile is
      exp (−1 · max ((∑ₖ x_pk² + ∑ₖ y_kq²) + ∑ₖ (x_pk · (−2)) · y_kq, 0)):
  the row sums of x² kept as a column and repeated along the rows, the column sums of y² kept as a row and repeated
  down the rows, and the matrix product of x scaled by −2 with y, started from zero.
-/
import proofs.«128940_j65481071398549_2_alg».proof.Proof.Gen.KernelIdeal.Skeleton
import proofs.«128940_j65481071398549_2_alg».proof.Proof.LibPlainLayers
import proofs.«128940_j65481071398549_2_alg».proof.Proof.LibColSums

noncomputable section

open scoped BigOperators

namespace Cert.KernelIdeal.Body

open Cert.KernelIdeal Cert.KernelIdeal.Gen Idealize.ShloMosaic Idealize.ShloMosaic.ValueIdx

/-- The formula of one tile entry, from a block of the first array and a block of the transposed second. -/
def tileEntry (x : FVec Ideal S1024x64 .f32) (y : FVec Ideal S64x1024 .f32) (p q : Fin 1024) : EReal :=
  Ideal.exp (Ideal.ofBits .f32 0xBF800000#32 * max
    (((∑ k : Fin 64, x (ix2 p k) * x (ix2 p k)) + ∑ k : Fin 64, y (ix2 k q) * y (ix2 k q))
      + ∑ k : Fin 64, (x (ix2 p k) * Ideal.ofBits .f32 0xC0000000#32) * y (ix2 k q))
    (Ideal.ofBits .f32 0x00000000#32))

/-- The printed record of the product's dimension numbers is the plain [M, K] by [K, N] one. -/
theorem dot_plain : dot_S1024x64_S64x1024_S1024x1024_1_0_0_1_n_n = DotDims.plain 1024 64 1024 := rfl

/-- The body's arithmetic on a block x and an already re-cast block y, at (p, q). -/
theorem arith_apply (x : FVec Ideal S1024x64 .f32) (y : FVec Ideal S64x1024 .f32) (p q : Fin 1024) :
    exp (mulf (broadcast S1024x1024 (Scalar.ofBits (F := Ideal) .f32 0xBF800000#32))
      (maximumf
        (addf
          (addf
            (broadcastTo S1024x1024 (shapeCast S1024x1 (multiReduction .add [1] S1024 (mulf x x) 0x00000000#32 reduces_S1024x64_S1024 (.inl rfl) rfl) shapeCasts_S1024_S1024x1) broadcasts_S1024x1_S1024x1024)
            (broadcastTo S1024x1024 (shapeCast S1x1024 (multiReduction .add [0] S1024 (mulf y y) 0x00000000#32 reduces_S64x1024_S1024 (.inl rfl) rfl) shapeCasts_S1024_S1x1024) broadcasts_S1x1024_S1024x1024))
          (matmul dot_S1024x64_S64x1024_S1024x1024_1_0_0_1_n_n (some .fp32) (mulf x (broadcast S1024x64 (Scalar.ofBits (F := Ideal) .f32 0xC0000000#32))) y (constant S1024x1024 .f32 0x00000000#32)))
        (broadcast S1024x1024 (Scalar.ofBits (F := Ideal) .f32 0x00000000#32)))) (ix2 p q)
      = tileEntry x y p q :=
  congrArg (fun d => Ideal.exp (Ideal.ofBits .f32 0xBF800000#32 * max d (Ideal.ofBits .f32 0x00000000#32)))
    (congrArg₂ (· + ·)
      (congrArg₂ (· + ·)
        ((Cert.Columns.broadcastTo_a1_ab_apply _ broadcasts_S1024x1_S1024x1024 p q).trans
          (Cert.Columns.keepdimsSum_apply (mulf x x) _ reduces_S1024x64_S1024 (.inl rfl) rfl shapeCasts_S1024_S1024x1 p 0))
        (Cert.ColSums.broadcast_keepdimsColSum_apply (mulf y y) _ reduces_S64x1024_S1024 (.inl rfl) rfl shapeCasts_S1024_S1x1024
          broadcasts_S1x1024_S1024x1024 p q))
      (Cert.PlainLayers.plainMM_of_eq _ dot_plain (some .fp32) (mulf x (broadcast S1024x64 (Scalar.ofBits (F := Ideal) .f32 0xC0000000#32))) y p q))

/-- THE PAYLOAD AT AN ENTRY: the body's one store, of the two loaded blocks, at (p, q). -/
theorem pay_apply (x0 : Vec Ideal S1024x64 .f32) (x1 : Vec Ideal S64x1024 .f32) (p q : Fin 1024) :
    k0_pay1 (F := Ideal) x0 x1 (ix2 p q) = tileEntry x0 x1 p q :=
  (arith_apply x0 (shapeCast S64x1024 x1 shapeCasts_S64x1024_S64x1024) p q).trans
    (by rw [shapeCast_self])

end Cert.KernelIdeal.Body

end
-- ==== Proof.RbfLaw.lean ====
/-
  The Gaussian similarity matrix of two families of points, as one function of the two arrays.

  For points x_p (the rows of X) and y_q (the rows of Y) in 64 dimensions the entry (p, q) is
      exp (−1 · max (d(p, q), 0)),     d(p, q) = ‖x_p‖² + ‖y_q‖² + ∑ₖ (x_pk · (−2)) · y_qk,
  the squared distance ‖x_p − y_q‖² expanded, with the factor −2 carried inside the inner product. The same
  number is reached by taking the inner product first and subtracting twice it:
      ‖x_p‖² + ‖y_q‖² − 2 · ∑ₖ x_pk · y_qk.
  On the extended reals the two spellings agree when the coordinates are real numbers (pulling −2 out of a sum
  is distributivity, which fails at the infinities); `cross_term` is that law, for any first summand.
-/
import Idealize.ShloMosaic.Lib.ValueIdx
import Idealize.ShloMosaic.PureOps.Ideal.Laws

noncomputable section

open scoped BigOperators

namespace Cert.Rbf

open Idealize.ShloMosaic Idealize.ShloMosaic.ValueIdx

/-- The single-precision pattern C0000000 is the real number −2. -/
theorem ofBits_neg_two : Ideal.ofBits .f32 0xC0000000#32 = ((-2 : ℝ) : EReal) := by
  simp [Ideal.ofBits, Ideal.ieee, -EReal.coe_mul]; norm_num

/-- The single-precision pattern 40000000 is the real number 2. -/
theorem ofBits_two : Ideal.ofBits .f32 0x40000000#32 = ((2 : ℝ) : EReal) := by
  simp [Ideal.ofBits, Ideal.ieee, -EReal.coe_mul]; norm_num

/-- A finite sum of real numbers, seen in the extended reals, is the sum of the summands seen there. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- THE LAW. For real coordinates, subtracting twice the inner product is adding the inner product taken with
    the first factor scaled by −2: a − 2 · ∑ₖ xₖ yₖ = a + ∑ₖ (xₖ · (−2)) · yₖ, for every extended real a. -/
theorem cross_term {K : ℕ} (x y : Fin K → ℝ) (a : EReal) :
    a - Ideal.ofBits .f32 0x40000000#32 * ∑ k : Fin K, (x k : EReal) * (y k : EReal)
      = a + ∑ k : Fin K, ((x k : EReal) * Ideal.ofBits .f32 0xC0000000#32) * (y k : EReal) := by
  rw [ofBits_two, ofBits_neg_two]
  simp only [← EReal.coe_mul, ← coe_sum]
  rw [sub_eq_add_neg, ← EReal.coe_neg]
  congr 2
  rw [Finset.mul_sum, ← Finset.sum_neg_distrib]
  exact Finset.sum_congr rfl fun k _ => by ring

/-- d(p, q): the squared norms of row p of X and of row q of Y, plus the inner product of the two rows with the
    first scaled by −2. -/
def sqDist (X Y : FVec Ideal ⟨2, ![8192, 64]⟩ .f32) (p q : Fin 8192) : EReal :=
  ((∑ k : Fin 64, X (ix2 p k) * X (ix2 p k)) + ∑ k : Fin 64, Y (ix2 q k) * Y (ix2 q k))
    + ∑ k : Fin 64, (X (ix2 p k) * Ideal.ofBits .f32 0xC0000000#32) * Y (ix2 q k)

/-- The similarity matrix: entry (p, q) is exp (−1 · max (d(p, q), 0)). -/
def gram (X Y : FVec Ideal ⟨2, ![8192, 64]⟩ .f32) : FVec Ideal ⟨2, ![8192, 8192]⟩ .f32 := fun i =>
  Ideal.exp (Ideal.ofBits .f32 0xBF800000#32 * max (sqDist X Y (i 0) (i 1)) (Ideal.ofBits .f32 0x00000000#32))

end Cert.Rbf

end
-- ==== Proof.RbfBlocks.lean ====
/-
  The tile a grid point computes, as entries of the similarity matrix.

  Grid point t = (i, j) of the 8 × 8 grid stages rows 1024·i … 1024·i + 1023 of the first array (all 64 columns) and
  columns 1024·j … 1024·j + 1023 of the TRANSPOSED second array (all 64 rows) — the transpose is the one host step
  before the kernel, so entry (k, c) of that block is entry (1024·j + c, k) of the second array itself. Entry (p, q)
  of the tile the body computes from the two blocks is therefore entry (1024·i + p, 1024·j + q) of
  `Cert.Rbf.gram` of the two argument arrays.
-/
import proofs.«128940_j65481071398549_2_alg».proof.Proof.Gen.KernelIdeal.Value
import proofs.«128940_j65481071398549_2_alg».proof.Proof.RbfBody
import proofs.«128940_j65481071398549_2_alg».proof.Proof.RbfLaw
import Idealize.ShloMosaic.Lib.Pipeline.Value
import Idealize.ShloMosaic.Lib.StableHlo.Run
import Idealize.ShloMosaic.Lib.Tactic

noncomputable section

open scoped BigOperators

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The array the second window stages is the second argument transposed. -/
theorem V_main_v0 (c : Dev nD) :
    (V m c main_v0 : S64x8192.Idx → EReal)
      = transpose S64x8192 [1, 0] (m ((c : Thread nD τ).loc main_arg1)) transposes_S8192x64_S64x8192_1_0 := by
  dsimp only [Gen.V, Gen.hostOps0]; after_results

/-- The three index maps over the 64 grid points: the first array's block follows the tile's block row and has one
    block column; the transposed array's block has one block row and follows the tile's block column; both of the
    tile's block coordinates are below 8. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 7 ∧ win0_2.index t (1 : Fin 2) ≤ 7 :=
  (by decide +kernel : ∀ t : Fin grid0.N, _)

/-- The first array's block at point t, entry (p, k): the first argument at (1024·i + p, k). -/
theorem blockX_apply (c : Dev nD) (t : Fin cfg0.N) (p : Fin 1024) (k : Fin 64) (P : Fin 8192)
    (hP : P.val = win0_2.index t (0 : Fin 2) * 1024 + p.val) :
    (iblk m c 0 t : Vec Ideal S1024x64 .f32) (ix2 p k)
      = (m ((c : Thread nD τ).loc main_arg0) : S8192x64.Idx → EReal) (ix2 P k) := by
  obtain ⟨e0, e1, -, -, -, -⟩ := idx_facts t
  unfold iblk
  rw [View.read_apply]
  show V m c main_arg0 _ = _
  rw [V_main_arg0]
  congr 1
  funext a
  apply Fin.ext
  match a with
  | ⟨0, _⟩ => show win0_0.index t (0 : Fin 2) * 1024 + 1 * p.val = P.val; rw [e0, hP]; omega
  | ⟨1, _⟩ => show win0_0.index t (1 : Fin 2) * 64 + 1 * k.val = k.val; rw [e1]; omega

/-- The transposed array's block at point t, entry (k, q): the second argument at (1024·j + q, k). -/
theorem blockY_apply (c : Dev nD) (t : Fin cfg0.N) (k : Fin 64) (q : Fin 1024) (Q : Fin 8192)
    (hQ : Q.val = win0_2.index t (1 : Fin 2) * 1024 + q.val) :
    (iblk m c 1 t : Vec Ideal S64x1024 .f32) (ix2 k q)
      = (m ((c : Thread nD τ).loc main_arg1) : S8192x64.Idx → EReal) (ix2 Q k) := by
  obtain ⟨-, -, e2, e3, -, -⟩ := idx_facts t
  unfold iblk
  rw [View.read_apply]
  show V m c main_v0 _ = _
  rw [V_main_v0]
  refine transpose_apply [1, 0] _ transposes_S8192x64_S64x8192_1_0 _ (ix2 Q k) fun b => ?_
  match b with
  | ⟨0, _⟩ => show k.val = win0_1.index t (0 : Fin 2) * 64 + 1 * k.val; rw [e2]; omega
  | ⟨1, _⟩ => show Q.val = win0_1.index t (1 : Fin 2) * 1024 + 1 * q.val; rw [e3, hQ]; omega

/-- THE TILE: what the body computes from point t's two blocks, at (p, q), is the similarity matrix of the argument
    arrays at the index I whose coordinates are 1024·i + p and 1024·j + q. -/
theorem tile_at (c : Dev nD) (t : Fin cfg0.N) (p q : Fin 1024) (I : S8192x8192.Idx)
    (h0 : (I 0).val = win0_2.index t (0 : Fin 2) * 1024 + p.val)
    (h1 : (I 1).val = win0_2.index t (1 : Fin 2) * 1024 + q.val) :
    k0_pay1 (F := Ideal) (iblk m c 0 t) (iblk m c 1 t) (ix2 p q)
      = Cert.Rbf.gram (m ((c : Thread nD τ).loc main_arg0)) (m ((c : Thread nD τ).loc main_arg1)) I := by
  refine (Cert.KernelIdeal.Body.pay_apply (iblk m c 0 t) (iblk m c 1 t) p q).trans ?_
  unfold Cert.KernelIdeal.Body.tileEntry Cert.Rbf.gram Cert.Rbf.sqDist
  simp only [blockX_apply m c t p _ (I 0) h0, blockY_apply m c t _ q (I 1) h1]

end Cert.KernelIdeal.Tile

end
-- ==== Proof.RbfArray.lean ====
/-
  The kernel's result array is the similarity matrix.

  The 64 grid points write back 64 tiles of 1024 × 1024 entries; tile (i, j) holds, by `Tile.tile_at`, the entries
  (1024·i + p, 1024·j + q) of `Cert.Rbf.gram` of the argument arrays, and every index (r, s) of the 8192 × 8192
  result lies in the tile (r / 1024, s / 1024). So after the run the whole array is `gram`.
-/
import proofs.«128940_j65481071398549_2_alg».proof.Proof.RbfBlocks

noncomputable section

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- What point t writes back is tile t of the similarity matrix. -/
theorem flushed_eq (c : Dev nD) (t : Fin cfg0.N) :
    (dats m 0 c).flushed 2 t = ((cfg0.win 2).blk t).view.read (Elt Ideal)
      (Cert.Rbf.gram (m ((c : Thread nD τ).loc main_arg0)) (m ((c : Thread nD τ).loc main_arg1))) := by
  rw [Cert.KernelIdeal.Value.flushed2]
  unfold out0_2
  rw [View.canon_unit_zero zero_offsets]
  simp only [View.ld_unit_zero (S := S1024x64) zero_offsets, View.ld_unit_zero (S := S64x1024) zero_offsets]
  funext j
  exact (congrArg (k0_pay1 (F := Ideal) (iblk m c 0 t) (iblk m c 1 t)) (eq_ix2 j)).trans
    (tile_at m c t (j 0) (j 1) (((cfg0.win 2).blk t).view.emb j)
      (by show win0_2.index t (0 : Fin 2) * 1024 + 1 * (j 0).val = win0_2.index t (0 : Fin 2) * 1024 + (j 0).val; omega)
      (by show win0_2.index t (1 : Fin 2) * 1024 + 1 * (j 1).val = win0_2.index t (1 : Fin 2) * 1024 + (j 1).val; omega))

/-- Every pair of block coordinates below 8 is some grid point's. -/
theorem idx_onto : ∀ (q0 q1 : Fin 8), ∃ t : Fin cfg0.N, win0_2.index t = ![q0.val, q1.val] :=
  (by decide +kernel : ∀ (q0 q1 : Fin 8), ∃ t : Fin grid0.N, win0_2.index t = ![q0.val, q1.val])

/-- An index of the result is in point t's tile iff each coordinate is in the tile's range on its axis. -/
theorem mem_tile (t : Fin cfg0.N) (i : S8192x8192.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v1).slice (win0_2.rect t)).set ↔ _
  rw [View.set_slice_whole, Rect.mem_set_unit]
  exact Iff.rfl

/-- The tiles cover the result: index (r, s) is in the tile with block coordinates (r / 1024, s / 1024). -/
theorem tiles_cover (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the run the result array is the similarity matrix of the argument arrays. -/
theorem final (c : Dev nD) :
    (dats m 0 c).arrAt 2 cfg0.N
      = Cert.Rbf.gram (m ((c : Thread nD τ).loc main_arg0)) (m ((c : Thread nD τ).loc main_arg1)) :=
  (dats m 0 c).arrAt_eq_of_cover 2 _ (fun t _ => flushed_eq m c t) tiles_cover

/-- The kernel's run: every weakly fair execution ends with the result array at the similarity matrix of the argument
    arrays, and the arguments unchanged. -/
theorem run : θ_run defs (onTc (τ := τ) (main (F := Ideal))) ⟨m, fun _ => 0, ρ⟩ fun r => ∀ c : Dev nD,
      r.2.mem ((c : Thread nD τ).loc main_v1)
        = Cert.Rbf.gram (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Tile

end
-- ==== Proof.RbfRef.lean ====
/-
  The reference program computes the similarity matrix `Cert.Rbf.gram`.

  Read one operation at a time (the generated stage lemmas), entry (p, q) of the reference's result is
      exp (−1 · max ((0 + ∑ₖ x_pk²) + (0 + ∑ₖ y_qk²) − 2 · ∑ₖ x_pk · y_qk, 0)),
  the row sums started from the zero the host's reduction is given and the inner product taken against the
  transposed second array. With real coordinates this is `gram`: the zeros vanish and `Cert.Rbf.cross_term`
  moves the factor −2 inside the inner product.
-/
import proofs.«128940_j65481071398549_2_alg».proof.Proof.Gen.ReferenceIdeal.Read
import proofs.«128940_j65481071398549_2_alg».proof.Proof.RbfLaw

noncomputable section

open scoped BigOperators

namespace Cert.ReferenceIdeal.RefValue

open Cert.ReferenceIdeal Cert.ReferenceIdeal.Gen Cert.ReferenceIdeal.Read Idealize.ShloMosaic Idealize.ShloMosaic.ValueIdx

/-- Row p of the first array, as the row-sum stage reaches it through the two broadcasts. -/
theorem idx_rowX (i : S8192x8192.Idx) (k : Fin 64) :
    idx_main_v1 (idx_main_v6 (idx_main_v8 i)) k = ix2 (i 0) k :=
  funext fun a => Fin.ext (by match a with | ⟨0, _⟩ => rfl | ⟨1, _⟩ => rfl)

/-- Row q of the second array, likewise. -/
theorem idx_rowY (i : S8192x8192.Idx) (k : Fin 64) :
    idx_main_v3 (idx_main_v7 (idx_main_v9 i)) k = ix2 (i 1) k :=
  funext fun a => Fin.ext (by match a with | ⟨0, _⟩ => rfl | ⟨1, _⟩ => rfl)

/-- The product's left factor at (p, q), k is the first array at (p, k). -/
theorem idx_dotL (i : S8192x8192.Idx) (k : Fin 64) : lidx_main_v5 i k = ix2 (i 0) k :=
  funext fun a => Fin.ext (by match a with | ⟨0, _⟩ => rfl | ⟨1, _⟩ => rfl)

/-- The product's right factor at (p, q), k is the transposed second array at (k, q): the second array at (q, k). -/
theorem idx_dotR (i : S8192x8192.Idx) (k : Fin 64) : idx_main_v4 (ridx_main_v5 i k) = ix2 (i 1) k :=
  funext fun a => Fin.ext (by match a with | ⟨0, _⟩ => rfl | ⟨1, _⟩ => rfl)

/-- With real coordinates the reference's result is the similarity matrix. -/
theorem ref_eq (X Y : FVec Ideal S8192x64 .f32) (hX : ∀ j, ∃ r : ℝ, X j = (r : EReal)) (hY : ∀ j, ∃ r : ℝ, Y j = (r : EReal)) :
    val_main_v18 (F := Ideal) X Y = Cert.Rbf.gram X Y := by
  funext i
  choose xr hxr using hX
  choose yr hyr using hY
  rw [val_main_v18_apply, val_main_v17_apply, val_main_v16_apply, val_main_cst_3_apply, val_main_v15_apply,
    val_main_v14_apply, val_main_cst_2_apply, val_main_v13_apply, val_main_v12_apply, val_main_v11_apply,
    val_main_cst_1_apply, val_main_v5_apply, val_main_v10_apply, val_main_v8_apply, val_main_v6_apply,
    val_main_v1_apply, val_main_v9_apply, val_main_v7_apply, val_main_v3_apply]
  simp only [val_main_v0_apply, val_main_v2_apply, val_main_v4_apply, val_main_cst_apply, val_main_cst_0_apply,
    idx_rowX, idx_rowY, idx_dotL, idx_dotR,
    Ideal.hostUnary_exp_def, Ideal.mulf_def, Ideal.maximumf_def, Ideal.subf_def, Ideal.addf_def, Ideal.ofBits_def,
    Ideal.ofBits_zero_f32, zero_add]
  unfold Cert.Rbf.gram Cert.Rbf.sqDist
  simp only [Ideal.ofBits_zero_f32]
  refine congrArg (fun d => Ideal.exp (Ideal.ofBits .f32 0xBF800000#32 * max d 0)) ?_
  have h := Cert.Rbf.cross_term (fun k => xr (ix2 (i 0) k)) (fun k => yr (ix2 (i 1) k))
    ((∑ k : Fin 64, X (ix2 (i 0) k) * X (ix2 (i 0) k)) + ∑ k : Fin 64, Y (ix2 (i 1) k) * Y (ix2 (i 1) k))
  simp only [← hxr, ← hyr] at h
  exact h

end Cert.ReferenceIdeal.RefValue

end
-- ==== Proof.RbfFinite.lean ====
/-
  From the precondition to real coordinates.

  The precondition says, of each of the two arrays, that every entry's absolute value is below +∞ (a conjunction
  over all entries, folded by "and" into one bit, and the two bits joined by "and"). An extended real whose
  absolute value max (x, −x) is below +∞ is neither infinity, so it is a real number.
-/
import proofs.«128940_j65481071398549_2_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal

noncomputable section

namespace Cert.Pre_finite_inputs.Decode

open Idealize.ShloMosaic Cert.Pre_finite_inputs

/-- The scalar shape has one index. -/
instance : Subsingleton S_.Idx := ⟨fun _ _ => funext fun d => d.elim0⟩

/-- An extended real with max (x, −x) < +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

variable [Facts]

/-- One array's bit: if "every |entry| < +∞" folds to one, every entry is real. -/
theorem entries_real (X : FVec Ideal S8192x64 .f32)
    (h : Host.reduce IntOp.andi (cmpf .olt (Host.absf X)
        (broadcastInDim S8192x64 ![] Facts.bcast_S_S8192x64 (constant (F := Ideal) S_ .f32 0x7F800000#32)))
      (constantI S_ 1 1#1) Facts.reducesTo_S8192x64_S_d0_1 Facts.h_S_ ValueIdx.ix0 = 1#1)
    (j : S8192x64.Idx) : ∃ r : ℝ, X j = (r : EReal) := by
  have e := Host.reduce_andi_all _ _ _ _ _ h j
  have hb : broadcastInDim S8192x64 ![] Facts.bcast_S_S8192x64 (constant (F := Ideal) S_ .f32 0x7F800000#32) j
      = Ideal.ofBits .f32 0x7F800000#32 :=
    broadcastInDim_apply _ Facts.bcast_S_S8192x64 _ j ValueIdx.ix0 (fun a => a.elim0)
  refine real_of_abs_lt_top (X j) ?_
  rw [← hb]
  exact e

/-- Under the precondition every entry of both arrays is a real number. -/
theorem reals_of_pre (X Y : FVec Ideal S8192x64 .f32) (h : fn (F := Ideal) X Y = fun _ => 1#1) :
    (∀ j, ∃ r : ℝ, X j = (r : EReal)) ∧ (∀ j, ∃ r : ℝ, Y j = (r : EReal)) := by
  have h0 := congrFun h ValueIdx.ix0
  dsimp only [fn] at h0
  obtain ⟨hx, hy⟩ := IntOp.andi_eq_one.1 h0
  exact ⟨entries_real X hx, entries_real Y hy⟩

end Cert.Pre_finite_inputs.Decode

end
-- ==== Proof.lean ====
/- The proof of `Cert.Claim`: a tiled kernel for the Gaussian similarity matrix exp (−‖x_p − y_q‖²) of two families
   of 8192 points in 64 dimensions, against the plain whole-array computation.

   Both programs expand the squared distance as ‖x_p‖² + ‖y_q‖² − 2 ⟨x_p, y_q⟩, cut it at zero and apply
   exp (−1 · ·). They differ in three ways, none of which changes the extended-real value for real inputs:
   * the kernel works tile by tile (an 8 × 8 grid of 1024 × 1024 tiles; the 64 tiles cover the result) from a block
     of rows of X and a block of columns of the transposed Y, while the reference works on the whole arrays;
   * the kernel keeps the two squared norms as a column and a row and broadcasts them, the reference broadcasts
     two vectors; the kernel's product is a matrix unit product started from zero, the reference's a dot_general;
   * the kernel scales X by −2 BEFORE the product and adds, the reference multiplies the product by 2 and subtracts.
     Pulling −2 out of the sum over the 64 coordinates is distributivity, which on the extended reals needs the
     coordinates to be real numbers: this is where the precondition (every input finite) is used.

   The modules: RbfLaw (the specification `gram` and the law), RbfFinite (the precondition gives real coordinates),
   RbfRef (the reference computes `gram`), RbfBody (one entry of the kernel body's tile), RbfBlocks (a tile's entries
   are entries of `gram`), RbfArray (the tiles cover the result: the kernel computes `gram`). The three frames are the
   generated ones; no operation of the kernel was rewritten when it was idealized, so that conjunct is trivial. -/
import proofs.«128940_j65481071398549_2_alg».proof.Defs
import proofs.«128940_j65481071398549_2_alg».proof.Proof.Gen.Kernel
import proofs.«128940_j65481071398549_2_alg».proof.Proof.Gen.Kernel.Skeleton
import proofs.«128940_j65481071398549_2_alg».proof.Proof.Gen.Kernel.Launch
import proofs.«128940_j65481071398549_2_alg».proof.Proof.Gen.Kernel.Points
import proofs.«128940_j65481071398549_2_alg».proof.Proof.Gen.Kernel.Frame
import proofs.«128940_j65481071398549_2_alg».proof.Proof.Gen.KernelIdeal
import proofs.«128940_j65481071398549_2_alg».proof.Proof.Gen.KernelIdeal.Skeleton
import proofs.«128940_j65481071398549_2_alg».proof.Proof.Gen.KernelIdeal.Launch
import proofs.«128940_j65481071398549_2_alg».proof.Proof.Gen.KernelIdeal.Points
import proofs.«128940_j65481071398549_2_alg».proof.Proof.Gen.KernelIdeal.Frame
import proofs.«128940_j65481071398549_2_alg».proof.Proof.Gen.ReferenceIdeal
import proofs.«128940_j65481071398549_2_alg».proof.Proof.Gen.Pre_finite_inputs
import proofs.«128940_j65481071398549_2_alg».proof.Proof.Gen.KernelIdeal.Value
import proofs.«128940_j65481071398549_2_alg».proof.Proof.Gen.ReferenceIdeal.Run
import proofs.«128940_j65481071398549_2_alg».proof.Proof.Gen.ReferenceIdeal.Read
import proofs.«128940_j65481071398549_2_alg».proof.Proof.RbfArray
import proofs.«128940_j65481071398549_2_alg».proof.Proof.RbfRef
import proofs.«128940_j65481071398549_2_alg».proof.Proof.RbfFinite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the two arrays, whose entries the precondition makes real numbers, both programs end with
    their result at the similarity matrix `Cert.Rbf.gram` of the arrays. -/
theorem algebraic : Cert.algebraic_KernelIdeal_ReferenceIdeal := by
  intro m ρ m' ρ' hpre hagree
  refine ⟨fun c => Cert.Rbf.gram (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hY⟩ := Cert.Pre_finite_inputs.Decode.reals_of_pre _ _ (hpre c)
  rw [Cert.ReferenceIdeal.Read.val_main_v18_eq, (hagree c).1, (hagree c).2]
  exact Cert.ReferenceIdeal.RefValue.ref_eq _ _ hX hY

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
